-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S512x128 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S128x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelFrame.lean ====
/-
  The frame of the kernel program over machine words, stated for every float instance: every weakly fair run of @main terminates
  without a fault and leaves the argument array as it was; and, for the value claim, what the result array holds
  afterwards, stated through the library's account of the write-backs.

  @main squares and row-sums the argument on the host (five operations), then launches one pipelined region over a
  4 x 16 grid. The region has five windows. Windows 0 and 1 are both windows of the argument array z (a 512-row block
  chosen by the inner grid coordinate, a 2048-row block chosen by the outer one); windows 2 and 3 are the row sums as a
  column and as a row; window 4 is the 512 x 2048 output block, written back at every point. Because two windows read
  one array, the array's full share is dealt between them here, by halves: each window only ever reads its array, so
  half a share is enough for its fetches, and at the end both halves still hold the entry contents.

  The body loads the four input blocks whole, computes one 512 x 2048 value from them (the generated skeleton's
  payload), and stores it over the whole output block; nothing is kept from point to point.
-/
import proofs.«128169_j50560355008576_2_alg».proof.Proof.Gen.Kernel.Launch
import proofs.«128169_j50560355008576_2_alg».proof.Proof.Gen.Kernel.Skeleton
import proofs.«128169_j50560355008576_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core c when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0_0 : Rect S512x128 := Rect.unit (s := S512x128) ![0, 0] S512x128.size inb_S512x128_S512x128_0_0
abbrev r0_1 : Rect S2048x128 := Rect.unit (s := S2048x128) ![0, 0] S2048x128.size inb_S2048x128_S2048x128_0_0
abbrev r0_2 : Rect S512x1 := Rect.unit (s := S512x1) ![0, 0] S512x1.size inb_S512x1_S512x1_0_0
abbrev r0_3 : Rect S1x2048 := Rect.unit (s := S1x2048) ![0, 0] S1x2048.size inb_S1x2048_S1x2048_0_0
abbrev r0_4 : Rect S512x2048 := Rect.unit (s := S512x2048) ![0, 0] S512x2048.size inb_S512x2048_S512x2048_0_0

/-! ## What the body leaves in the output window's buffer -/

/-- The output buffer after the body, from the four input blocks: its one store, of the body's value, over the whole
    buffer. -/
def out0_4 (x0 : Vec F S512x128 .f32) (x1 : Vec F S2048x128 .f32) (x2 : Vec F S512x1 .f32) (x3 : Vec F S1x2048 .f32) : Vec F S512x2048 .f32 :=
  View.canon [⟨r0_4, k0_pay1 (View.ld x0 r0_0) (View.ld x1 r0_1) (View.ld x2 r0_2) (View.ld x3 r0_3)⟩]

/-- The one store covers the buffer. -/
theorem cover0_4 (p0 : Vec F S512x2048 .f32) (y : S512x2048.Idx) :
    ∃ pc ∈ ([⟨r0_4, p0⟩] : List (View.Piece (Elt F) S512x2048 .f32)), y ∈ pc.1.set :=
  View.cover_of_tiled [⟨r0_4, p0⟩] S512x2048.size (by rfl) y

/-! ## The body's triple -/

set_option maxHeartbeats 1000000 in
/-- The body on whole staging memrefs — the inputs' at contents x0 … x3, the output's at anything — runs to the
    continuation with the inputs' as they were and the output's at out0_4 of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 : Vec F S512x1 .f32) (x3 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- The proof data on core c: the arrays as the region finds them; after the body at point t each input's buffer at
    its block and the output's at out0_4 of the four input blocks; nothing carried between points; nothing owed. The
    argument array's share is dealt by halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the argument's share dealt to its two windows -/

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The four distinct buffers behind the five windows, each whole at the full share at its entry contents, make the
    proof data's arrays at entry: the argument's full share splits into the two halves its windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) := by
    unfold Pipeline.arrBufs
    exact bigSep_eq_bigSepL_of_eq [main_arg0, main_v2, main_v3, main_v4] (by decide) (by decide) _
  rw [hL]
  unfold Dat.arrays
  rw [bigSep_W0]
  rw [share0, share1, share2, share3, share4, (arr_whole0 0).set_eq_univ, (arr_whole0 2).set_eq_univ,
    (arr_whole0 3).set_eq_univ, (arr_whole0 4).set_eq_univ]
  iintro ⟨H0, H2, H3, H4⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  iexact H4

/-! ## The run -/

/-- The launch element: every staging cell's owner at round 0 and a duty token for every transfer the pipeline issues. -/
def u₀ : UR sig nD τ := initOf (Pipeline.cells cfgs cellOf_inj) (Pipeline.launchToks cfgs cellOf_inj)

/-- What the run ends in: every window's array holds what the library computes from the proof data after the last
    write-back. -/
def Post : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- Every weakly fair run of @main from a memory whose counters are zero terminates, and in every final state each
    window's array is what the library computes from the proof data. -/
theorem run_main : θ_run defs (onTc (τ := τ) (main (F := F))) (s₀ m ρ) (Post m) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array ends as launched: an input window's array is never written back, and no host operation
    writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans ((A_eq m c 0).trans (V_main_arg0 m c)))))
    (run_main m ρ)

end Cert.Kernel.Shared

end
-- ==== Proof.KernelIdealFrame.lean ====
/-
  The frame of the idealized kernel program, for every float instance: every weakly fair run of @main terminates
  without a fault and leaves the argument array as it was; and, for the value claim, what the result array holds
  afterwards, stated through the library's account of the write-backs.

  @main squares and row-sums the argument on the host (five operations), then launches one pipelined region over a
  4 x 16 grid. The region has five windows. Windows 0 and 1 are both windows of the argument array z (a 512-row block
  chosen by the inner grid coordinate, a 2048-row block chosen by the outer one); windows 2 and 3 are the row sums as a
  column and as a row; window 4 is the 512 x 2048 output block, written back at every point. Because two windows read
  one array, the array's full share is dealt between them here, by halves: each window only ever reads its array, so
  half a share is enough for its fetches, and at the end both halves still hold the entry contents.

  The body loads the four input blocks whole, computes one 512 x 2048 value from them (the generated skeleton's
  payload), and stores it over the whole output block; nothing is kept from point to point.
-/
import proofs.«128169_j50560355008576_2_alg».proof.Proof.Gen.KernelIdeal.Launch
import proofs.«128169_j50560355008576_2_alg».proof.Proof.Gen.KernelIdeal.Skeleton
import proofs.«128169_j50560355008576_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core c when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0_0 : Rect S512x128 := Rect.unit (s := S512x128) ![0, 0] S512x128.size inb_S512x128_S512x128_0_0
abbrev r0_1 : Rect S2048x128 := Rect.unit (s := S2048x128) ![0, 0] S2048x128.size inb_S2048x128_S2048x128_0_0
abbrev r0_2 : Rect S512x1 := Rect.unit (s := S512x1) ![0, 0] S512x1.size inb_S512x1_S512x1_0_0
abbrev r0_3 : Rect S1x2048 := Rect.unit (s := S1x2048) ![0, 0] S1x2048.size inb_S1x2048_S1x2048_0_0
abbrev r0_4 : Rect S512x2048 := Rect.unit (s := S512x2048) ![0, 0] S512x2048.size inb_S512x2048_S512x2048_0_0

/-! ## What the body leaves in the output window's buffer -/

/-- The output buffer after the body, from the four input blocks: its one store, of the body's value, over the whole
    buffer. -/
def out0_4 (x0 : Vec F S512x128 .f32) (x1 : Vec F S2048x128 .f32) (x2 : Vec F S512x1 .f32) (x3 : Vec F S1x2048 .f32) : Vec F S512x2048 .f32 :=
  View.canon [⟨r0_4, k0_pay1 (View.ld x0 r0_0) (View.ld x1 r0_1) (View.ld x2 r0_2) (View.ld x3 r0_3)⟩]

/-- The one store covers the buffer. -/
theorem cover0_4 (p0 : Vec F S512x2048 .f32) (y : S512x2048.Idx) :
    ∃ pc ∈ ([⟨r0_4, p0⟩] : List (View.Piece (Elt F) S512x2048 .f32)), y ∈ pc.1.set :=
  View.cover_of_tiled [⟨r0_4, p0⟩] S512x2048.size (by rfl) y

/-! ## The body's triple -/

set_option maxHeartbeats 1000000 in
/-- The body on whole staging memrefs — the inputs' at contents x0 … x3, the output's at anything — runs to the
    continuation with the inputs' as they were and the output's at out0_4 of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 : Vec F S512x1 .f32) (x3 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- The proof data on core c: the arrays as the region finds them; after the body at point t each input's buffer at
    its block and the output's at out0_4 of the four input blocks; nothing carried between points; nothing owed. The
    argument array's share is dealt by halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the argument's share dealt to its two windows -/

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The four distinct buffers behind the five windows, each whole at the full share at its entry contents, make the
    proof data's arrays at entry: the argument's full share splits into the two halves its windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) := by
    unfold Pipeline.arrBufs
    exact bigSep_eq_bigSepL_of_eq [main_arg0, main_v2, main_v3, main_v4] (by decide) (by decide) _
  rw [hL]
  unfold Dat.arrays
  rw [bigSep_W0]
  rw [share0, share1, share2, share3, share4, (arr_whole0 0).set_eq_univ, (arr_whole0 2).set_eq_univ,
    (arr_whole0 3).set_eq_univ, (arr_whole0 4).set_eq_univ]
  iintro ⟨H0, H2, H3, H4⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  iexact H4

/-! ## The run -/

/-- The launch element: every staging cell's owner at round 0 and a duty token for every transfer the pipeline issues. -/
def u₀ : UR sig nD τ := initOf (Pipeline.cells cfgs cellOf_inj) (Pipeline.launchToks cfgs cellOf_inj)

/-- What the run ends in: every window's array holds what the library computes from the proof data after the last
    write-back. -/
def Post : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- Every weakly fair run of @main from a memory whose counters are zero terminates, and in every final state each
    window's array is what the library computes from the proof data. -/
theorem run_main : θ_run defs (onTc (τ := τ) (main (F := F))) (s₀ m ρ) (Post m) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array ends as launched: an input window's array is never written back, and no host operation
    writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans ((A_eq m c 0).trans (V_main_arg0 m c)))))
    (run_main m ρ)

end Cert.KernelIdeal.Shared

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.KernelPayload.lean ====
/-
  The body's value at an index, on the extended reals.

  At one grid point the body holds a 512 x 128 block a of rows of z, a 2048 x 128 block b of rows of z, the squared
  norms of a's rows as a column s and of b's rows as a row u. Its value at (p, q) is
      exp ((0 - max ((s p + u q) - 2 * ((a_p . b_q + a_p . (b_q - b_q)) + (a_p - a_p) . b_q)) 0) / 1),
  the three inner products being the matrix unit's products into a zero accumulator; a change of float format is the
  identity here. When every entry of a and b is a real number, x - x = 0 entry by entry, so the second and third inner
  products are sums of zeros, and the value is exp (-(max ((s p + u q) - 2 * (a_p . b_q)) 0) / 1).
  Finiteness is used exactly there: for an infinite entry x - x is not 0.
-/
import proofs.«128169_j50560355008576_2_alg».proof.Proof.Gen.KernelIdeal.Skeleton
import proofs.«128169_j50560355008576_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The matrix unit's product of a 512 x 128 by a 2048 x 128 operand, contracting the second axis of both, into the zero
    accumulator: entry (p, q) is the inner product of row p of the first with row q of the second. -/
theorem mm_apply {φ₁ φ₂ : FTy} (a : FVec Ideal S512x128 φ₁) (b : FVec Ideal S2048x128 φ₂) (p : Fin 512) (q : Fin 2048) :
    matmul dot_S512x128_S2048x128_S512x2048_1_1_0_0_n_n none a b (constant (F := Ideal) S512x2048 .f32 0x00000000#32) (ix2 p q)
      = ∑ k : Fin 128, a (ix2 p k) * b (ix2 q k) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p q) ((ValueIdx.contrEquiv1 dot_S512x128_S2048x128_S512x2048_1_1_0_0_n_n 128 rfl rfl).symm k) = ix2 p k := funext fun ax => Fin.ext (by
    match ax with
    | ⟨0, _⟩ =>
      show (dot_S512x128_S2048x128_S512x2048_1_1_0_0_n_n.lhsIdx (ix2 p q) _ 0).val = p.val
      unfold DotDims.lhsIdx
      rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
      rfl
    | ⟨1, _⟩ => exact (dot_S512x128_S2048x128_S512x2048_1_1_0_0_n_n.lhsIdx_val_of_single rfl (ix2 p q) _).trans hk)
  have er : dot_S512x128_S2048x128_S512x2048_1_1_0_0_n_n.rhsIdx (ix2 p q) ((ValueIdx.contrEquiv1 dot_S512x128_S2048x128_S512x2048_1_1_0_0_n_n 128 rfl rfl).symm k) = ix2 q k := funext fun ax => Fin.ext (by
    match ax with
    | ⟨0, _⟩ =>
      show (dot_S512x128_S2048x128_S512x2048_1_1_0_0_n_n.rhsIdx (ix2 p q) _ 0).val = q.val
      unfold DotDims.rhsIdx
      rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
      rfl
    | ⟨1, _⟩ => exact (dot_S512x128_S2048x128_S512x2048_1_1_0_0_n_n.rhsIdx_val_of_single rfl (ix2 p q) _).trans hk)
  rw [el, er]

/-- A real number less itself is zero, also as an extended real. -/
theorem sub_self_of_real {x : EReal} (h : ∃ r : ℝ, x = (r : EReal)) : x - x = 0 := by
  obtain ⟨r, rfl⟩ := h
  rw [← EReal.coe_sub, sub_self, EReal.coe_zero]

/-- The body's value at (p, q), for blocks of real numbers. -/
theorem pay_apply (x0 : Vec Ideal S512x128 .f32) (x1 : Vec Ideal S2048x128 .f32) (x2 : Vec Ideal S512x1 .f32) (x3 : Vec Ideal S1x2048 .f32)
    (h0 : ∀ i, ∃ r : ℝ, x0 i = (r : EReal)) (h1 : ∀ i, ∃ r : ℝ, x1 i = (r : EReal)) (p : Fin 512) (q : Fin 2048) :
    k0_pay1 (F := Ideal) x0 x1 x2 x3 (ix2 p q)
      = Ideal.exp (Ideal.div
          (-(max ((x2 (ix2 p (0 : Fin 1)) + x3 (ix2 (0 : Fin 1) q)) - Ideal.ofBits .f32 0x40000000#32 * ∑ k : Fin 128, x0 (ix2 p k) * x1 (ix2 q k))
              (Ideal.ofBits .f32 0x00000000#32)))
          (Ideal.ofBits .f32 0x3F800000#32)) := by
  unfold k0_pay1
  show Ideal.exp (Ideal.div
      (Ideal.ofBits .f32 0x00000000#32 - max ((broadcastTo S512x2048 (shapeCast S512x1 x2 shapeCasts_S512x1_S512x1) broadcasts_S512x1_S512x2048 (ix2 p q)
            + broadcastTo S512x2048 (shapeCast S1x2048 x3 shapeCasts_S1x2048_S1x2048) broadcasts_S1x2048_S512x2048 (ix2 p q))
          - Ideal.ofBits .f32 0x40000000#32 * ((matmul dot_S512x128_S2048x128_S512x2048_1_1_0_0_n_n none (truncf .bf16 x0 bitsLt_bf16_f32) (truncf .bf16 x1 bitsLt_bf16_f32) (constant (F := Ideal) S512x2048 .f32 0x00000000#32) (ix2 p q)
              + matmul dot_S512x128_S2048x128_S512x2048_1_1_0_0_n_n none (truncf .bf16 x0 bitsLt_bf16_f32) (truncf .bf16 (subf x1 x1) bitsLt_bf16_f32) (constant (F := Ideal) S512x2048 .f32 0x00000000#32) (ix2 p q))
              + matmul dot_S512x128_S2048x128_S512x2048_1_1_0_0_n_n none (truncf .bf16 (subf x0 x0) bitsLt_bf16_f32) (truncf .bf16 x1 bitsLt_bf16_f32) (constant (F := Ideal) S512x2048 .f32 0x00000000#32) (ix2 p q)))
        (Ideal.ofBits .f32 0x00000000#32))
      (Ideal.ofBits .f32 0x3F800000#32)) = _
  rw [mm_apply, mm_apply, mm_apply, shapeCast_self, shapeCast_self,
    Cert.ColumnLayout.broadcastTo_a1_ab_apply, broadcastTo_1b_ab_apply]
  have e2 : (∑ k : Fin 128, (truncf .bf16 x0 bitsLt_bf16_f32 : FVec Ideal S512x128 .bf16) (ix2 p k) * (truncf .bf16 (subf x1 x1) bitsLt_bf16_f32 : FVec Ideal S2048x128 .bf16) (ix2 q k)) = 0 :=
    Finset.sum_eq_zero fun k _ => by
      show x0 (ix2 p k) * (x1 (ix2 q k) - x1 (ix2 q k)) = 0
      rw [sub_self_of_real (h1 _), mul_zero]
  have e3 : (∑ k : Fin 128, (truncf .bf16 (subf x0 x0) bitsLt_bf16_f32 : FVec Ideal S512x128 .bf16) (ix2 p k) * (truncf .bf16 x1 bitsLt_bf16_f32 : FVec Ideal S2048x128 .bf16) (ix2 q k)) = 0 :=
    Finset.sum_eq_zero fun k _ => by
      show (x0 (ix2 p k) - x0 (ix2 p k)) * x1 (ix2 q k) = 0
      rw [sub_self_of_real (h0 _), zero_mul]
  rw [e2, e3, add_zero, add_zero, Ideal.ofBits_zero_f32, zero_sub]
  rfl

end Cert.KernelIdeal.Payload

end
-- ==== Proof.Spec.lean ====
import Idealize.ShloMosaic.PureOps.Ideal
import Idealize.ShloMosaic.Lib.ValueIdx

/-!
  The specification: the Gaussian kernel matrix of the rows of `z : f32[8192, 128]`, stated index by index on the
  extended reals. With `sq z r = 0 + ∑ k, z r k * z r k` (the squared norm of row `r`) and
  `dot z r c = ∑ k, z r k * z c k` (the inner product of rows `r` and `c`), the entry at `(r, c)` is
  `exp (-(max (sq z r + sq z c - 2 * dot z r c) 0) / 1)`.
  The three literals are kept as the extended reals their IEEE patterns denote: `0x40000000` is `2`, `0x00000000` is `0`,
  `0x3F800000` is `1`.
-/

noncomputable section

open scoped BigOperators

namespace Cert.Spec

open Idealize.ShloMosaic Idealize.ShloMosaic.ValueIdx

/-- The argument's type: an array of extended reals over the index set of shape `8192 × 128`. -/
abbrev Arg : Type := FVec Ideal (⟨2, ![8192, 128]⟩ : Shape) .f32

/-- The squared norm of row `r`: the initial value `0` plus the sum of the squares of its 128 entries. -/
def sq (z : Arg) (r : Fin 8192) : EReal :=
  Ideal.ofBits .f32 0x00000000#32 + ∑ k : Fin 128, z (ix2 r k) * z (ix2 r k)

/-- The inner product of rows `r` and `c`. -/
def dot (z : Arg) (r c : Fin 8192) : EReal :=
  ∑ k : Fin 128, z (ix2 r k) * z (ix2 c k)

/-- The result, index by index: `exp (-(max (‖z r‖² + ‖z c‖² - 2 ⟨z r, z c⟩) 0) / 1)`. -/
def G (z : Arg) : FVec Ideal (⟨2, ![8192, 8192]⟩ : Shape) .f32 := fun j =>
  Ideal.exp (Ideal.div
    (-(max ((sq z (j 0) + sq z (j 1)) - Ideal.ofBits .f32 0x40000000#32 * dot z (j 0) (j 1))
        (Ideal.ofBits .f32 0x00000000#32)))
    (Ideal.ofBits .f32 0x3F800000#32))

end Cert.Spec

end
-- ==== Proof.KernelHost.lean ====
import proofs.«128169_j50560355008576_2_alg».proof.Proof.KernelIdealFrame
import proofs.«128169_j50560355008576_2_alg».proof.Proof.Spec
import proofs.«128169_j50560355008576_2_alg».proof.Proof.LibColumnLayout
import Idealize.ShloMosaic.Lib.ValueLayout
import Idealize.ShloMosaic.Lib.StableHlo.Run
import Idealize.ShloMosaic.PureOps.Ideal.Laws

/-!
  What the region finds in the two row-sum arrays. Before the region @main squares the argument `z` entry by entry, sums
  each row from the initial value `0`, and lays the 8192 sums out twice: as a column `[8192, 1]` and as a row `[1, 8192]`.
  A re-layout computes nothing, so the column at `(r, 0)` and the row at `(0, r)` both hold `0 + ∑ k, z r k * z r k`,
  the specification's squared norm of row `r`.
-/

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

/-- The sum along each row of `z * z`, from the initial value `0`, is at `r` the squared norm of row `r`. -/
theorem rowsum_apply (z : FVec Ideal S8192x128 .f32) (r : Fin 8192) :
    Host.reduceAdd (mulf z z) (constant (F := Ideal) S_ .f32 0x00000000#32) reducesTo_S8192x128_S8192_d1 h_S_ (ix1 r)
      = Cert.Spec.sq z r := by
  have hR : S8192x128.Reduces [1] S8192 := by decide
  simp only [Host.reduceAdd, Ideal.hostReduceAdd_def]
  rw [Ideal.hostReduceAdd_single reducesTo_S8192x128_S8192_d1 hR]
  unfold Cert.Spec.sq
  refine congrArg₂ (· + ·) rfl (Finset.sum_congr rfl fun k _ => ?_)
  have e : hR.lift (ix1 r) k = ix2 r k :=
    funext fun a => Fin.ext (by match a with | ⟨0, _⟩ => rfl | ⟨1, _⟩ => rfl)
  exact congrArg (fun j => z j * z j) e

variable (m : (ℓ : Loc nD τ sig) → Buf (Elt Ideal) ℓ) (c : Dev nD)

/-- The column array when the region is entered: the row sums of `z * z`, cast to `[8192, 1]`. -/
theorem v2_term :
    (Cert.KernelIdeal.Shared.V m c main_v2 : S8192x1.Idx → EReal)
      = shapeCast S8192x1 (Host.reduceAdd (mulf (m ((c : Thread nD τ).loc main_arg0)) (m ((c : Thread nD τ).loc main_arg0)))
          (constant (F := Ideal) S_ .f32 0x00000000#32) reducesTo_S8192x128_S8192_d1 h_S_) shapeCasts_S8192_S8192x1 := by
  dsimp only [Cert.KernelIdeal.Shared.V, Cert.KernelIdeal.Gen.hostOps0]
  after_results
  rfl

/-- The row array when the region is entered: the same row sums, cast to `[1, 8192]`. -/
theorem v3_term :
    (Cert.KernelIdeal.Shared.V m c main_v3 : S1x8192.Idx → EReal)
      = shapeCast S1x8192 (Host.reduceAdd (mulf (m ((c : Thread nD τ).loc main_arg0)) (m ((c : Thread nD τ).loc main_arg0)))
          (constant (F := Ideal) S_ .f32 0x00000000#32) reducesTo_S8192x128_S8192_d1 h_S_) shapeCasts_S8192_S1x8192 := by
  dsimp only [Cert.KernelIdeal.Shared.V, Cert.KernelIdeal.Gen.hostOps0]
  after_results
  rfl

/-- The column at `(r, 0)` is the squared norm of row `r`. -/
theorem v2_apply (r : Fin 8192) :
    Cert.KernelIdeal.Shared.V m c main_v2 (ix2 r (0 : Fin 1)) = Cert.Spec.sq (m ((c : Thread nD τ).loc main_arg0)) r :=
  (congrFun (v2_term m c) (ix2 r (0 : Fin 1))).trans
    ((Cert.ColumnLayout.shapeCast_a_a1_apply _ shapeCasts_S8192_S8192x1 r (0 : Fin 1)).trans (rowsum_apply _ r))

/-- The row at `(0, r)` is the squared norm of row `r`. -/
theorem v3_apply (r : Fin 8192) :
    Cert.KernelIdeal.Shared.V m c main_v3 (ix2 (0 : Fin 1) r) = Cert.Spec.sq (m ((c : Thread nD τ).loc main_arg0)) r :=
  (congrFun (v3_term m c) (ix2 (0 : Fin 1) r)).trans
    ((shapeCast_a_1a_apply _ shapeCasts_S8192_S1x8192 (0 : Fin 1) r).trans (rowsum_apply _ r))

end Cert.KernelIdeal.Host

end
-- ==== Proof.KernelValue.lean ====
/-
  What the result array holds after the run, at the ideal instance: the Gaussian kernel matrix of the rows of z.

  The output window's block at grid point t is rows [512 i, 512 i + 512) by columns [2048 j, 2048 j + 2048) of the
  8192 x 8192 result, where (j, i) are t's coordinates on the 4 x 16 grid; at that point window 0 holds rows
  [512 i, ..) of z, window 1 rows [2048 j, ..) of z, window 2 the squared norms of rows [512 i, ..) as a column and
  window 3 those of rows [2048 j, ..) as a row. So the body's value at (p, q) of the block — for real entries,
  exp (-(max ((s + u) - 2 (a_p . b_q)) 0) / 1) — is the specification's entry at (512 i + p, 2048 j + q), and the 64
  blocks tile the array: every entry of the result is written by the point whose block holds it.
-/
import proofs.«128169_j50560355008576_2_alg».proof.Proof.KernelIdealFrame
import proofs.«128169_j50560355008576_2_alg».proof.Proof.KernelPayload
import proofs.«128169_j50560355008576_2_alg».proof.Proof.KernelHost
import proofs.«128169_j50560355008576_2_alg».proof.Proof.Spec
import Idealize.ShloMosaic.Lib.Pipeline.Value

set_option maxRecDepth 16384

noncomputable section

open scoped BigOperators

namespace Cert.KernelIdeal.Final

open Cert.KernelIdeal Cert.KernelIdeal.Gen Cert.KernelIdeal.Shared
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The windows' index maps over the grid: every input window moves with one coordinate of the output window's block
    index and sits at 0 on its other axis; the output's block indices stay in range. -/
theorem idx_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every block of the result is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- Two blocks of rows of z, read where rows R and C of z lie, have the inner product of those rows. -/
theorem dot_of_rows (a : Vec Ideal S512x128 .f32) (b : Vec Ideal S2048x128 .f32) (z : Cert.Spec.Arg) (p : Fin 512) (q : Fin 2048) (R C : Fin 8192)
    (ha : ∀ k : Fin 128, a (ix2 p k) = z (ix2 R k)) (hb : ∀ k : Fin 128, b (ix2 q k) = z (ix2 C k)) :
    (∑ k : Fin 128, a (ix2 p k) * b (ix2 q k)) = Cert.Spec.dot z R C :=
  Finset.sum_congr rfl fun k _ => by rw [ha, hb]

/-- What point t writes back is block t of the specification of the argument array, when the argument's entries are
    real numbers. -/
theorem flushed_eq (c : Dev nD) (hfin : ∀ i, ∃ r : ℝ, m ((c : Thread nD τ).loc main_arg0) i = (r : EReal)) (t : Fin cfg0.N) :
    (dats m 0 c).flushed 4 t = ((cfg0.win 4).blk t).view.read (Elt Ideal) (Cert.Spec.G (m ((c : Thread nD τ).loc main_arg0))) := by
  show (cfg0.win 4).cut (grid0.coords t) ((dats m 0 c).after 4 t) = _
  rw [after0_4]
  unfold out0_4
  rw [View.canon_unit_zero hz]
  simp only [View.ld_unit_zero (S := S512x128) hz, View.ld_unit_zero (S := S2048x128) hz, View.ld_unit_zero (S := S512x1) hz,
    View.ld_unit_zero (S := S1x2048) hz]
  obtain ⟨e0, e1, e2, e3, e4, e5, e6, e7, e8, e9⟩ := idx_facts t
  funext j
  obtain ⟨p, q, rfl⟩ : ∃ (p : Fin 512) (q : Fin 2048), j = ix2 p q := ⟨j 0, j 1, eq_ix2 j⟩
  -- the array index this block entry is written to
  have hR : win0_4.index t (0 : Fin 2) * 512 + 1 * p.val < 8192 := by have := p.isLt; omega
  have hC : win0_4.index t (1 : Fin 2) * 2048 + 1 * q.val < 8192 := by have := q.isLt; omega
  let R : Fin 8192 := ⟨win0_4.index t (0 : Fin 2) * 512 + 1 * p.val, hR⟩
  let C : Fin 8192 := ⟨win0_4.index t (1 : Fin 2) * 2048 + 1 * q.val, hC⟩
  have hz0 : ∀ y, iblk m c 0 t y = m ((c : Thread nD τ).loc main_arg0) (((cfg0.win 0).blk t).view.emb y) := fun y => by
    show V m c main_arg0 (((cfg0.win 0).blk t).view.emb y) = _
    rw [V_main_arg0]
  have hz1 : ∀ y, iblk m c 1 t y = m ((c : Thread nD τ).loc main_arg0) (((cfg0.win 1).blk t).view.emb y) := fun y => by
    show V m c main_arg0 (((cfg0.win 1).blk t).view.emb y) = _
    rw [V_main_arg0]
  have hb0 : ∀ k : Fin 128, ((cfg0.win 0).blk t).view.emb (ix2 p k) = ix2 R k := fun k => by
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 128 + 1 * k.val = k.val; omega
  have hb1 : ∀ k : Fin 128, ((cfg0.win 1).blk t).view.emb (ix2 q k) = ix2 C k := fun k => by
    funext a; apply Fin.ext
    match a with
    | ⟨0, _⟩ => show win0_1.index t (0 : Fin 2) * 2048 + 1 * q.val = win0_4.index t (1 : Fin 2) * 2048 + 1 * q.val; omega
    | ⟨1, _⟩ => show win0_1.index t (1 : Fin 2) * 128 + 1 * k.val = k.val; omega
  have hb2 : ((cfg0.win 2).blk t).view.emb (ix2 p (0 : Fin 1)) = ix2 R (0 : Fin 1) := by
    funext a; apply Fin.ext
    match a with
    | ⟨0, _⟩ => show win0_2.index t (0 : Fin 2) * 512 + 1 * p.val = win0_4.index t (0 : Fin 2) * 512 + 1 * p.val; omega
    | ⟨1, _⟩ => show win0_2.index t (1 : Fin 2) * 1 + 1 * 0 = 0; omega
  have hb3 : ((cfg0.win 3).blk t).view.emb (ix2 (0 : Fin 1) q) = ix2 (0 : Fin 1) C := by
    funext a; apply Fin.ext
    match a with
    | ⟨0, _⟩ => show win0_3.index t (0 : Fin 2) * 1 + 1 * 0 = 0; omega
    | ⟨1, _⟩ => show win0_3.index t (1 : Fin 2) * 2048 + 1 * q.val = win0_4.index t (1 : Fin 2) * 2048 + 1 * q.val; omega
  have hb4 : ((cfg0.win 4).blk t).view.emb (ix2 p q) = ix2 R C := by
    funext a; apply Fin.ext
    match a with
    | ⟨0, _⟩ => rfl
    | ⟨1, _⟩ => rfl
  have hs : iblk m c 2 t (ix2 p (0 : Fin 1)) = Cert.Spec.sq (m ((c : Thread nD τ).loc main_arg0)) R := by
    show V m c main_v2 (((cfg0.win 2).blk t).view.emb (ix2 p (0 : Fin 1))) = _
    rw [hb2]
    exact Cert.KernelIdeal.Host.v2_apply m c R
  have hu : iblk m c 3 t (ix2 (0 : Fin 1) q) = Cert.Spec.sq (m ((c : Thread nD τ).loc main_arg0)) C := by
    show V m c main_v3 (((cfg0.win 3).blk t).view.emb (ix2 (0 : Fin 1) q)) = _
    rw [hb3]
    exact Cert.KernelIdeal.Host.v3_apply m c C
  have hd := dot_of_rows (iblk m c 0 t) (iblk m c 1 t) (m ((c : Thread nD τ).loc main_arg0)) p q R C
    (fun k => by rw [hz0, hb0]) (fun k => by rw [hz1, hb1])
  show k0_pay1 (F := Ideal) (iblk m c 0 t) (iblk m c 1 t) (iblk m c 2 t) (iblk m c 3 t) (ix2 p q)
      = Cert.Spec.G (m ((c : Thread nD τ).loc main_arg0)) (((cfg0.win 4).blk t).view.emb (ix2 p q))
  rw [Cert.KernelIdeal.Payload.pay_apply _ _ _ _ (fun i => by rw [hz0]; exact hfin _) (fun i => by rw [hz1]; exact hfin _), hs, hu, hd, hb4]
  rfl

/-- An index of the result is in point t's block iff each coordinate is in the block's range on its axis. -/
theorem mem_blk (t : Fin cfg0.N) (i : S8192x8192.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4).slice (win0_4.rect t)).set ↔ _
  rw [View.set_slice_whole, Rect.mem_set_unit]
  exact Iff.rfl

/-- The blocks tile the result: entry (r, c) is in the block of the point with block index (r / 512, c / 2048). -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The result array after the run is the specification of the argument array. -/
theorem final (c : Dev nD) (hfin : ∀ i, ∃ r : ℝ, m ((c : Thread nD τ).loc main_arg0) i = (r : EReal)) :
    (dats m 0 c).arrAt 4 cfg0.N = Cert.Spec.G (m ((c : Thread nD τ).loc main_arg0)) :=
  (dats m 0 c).arrAt_eq_of_cover 4 _ (fun t _ => flushed_eq m c hfin t) cover

/-- The run, read: the result array at the specification of the argument, the argument unchanged. -/
theorem run (hfin : ∀ (c : Dev nD) i, ∃ r : ℝ, m ((c : Thread nD τ).loc main_arg0) i = (r : EReal)) :
    θ_run defs (onTc (τ := τ) (main (F := Ideal))) ⟨m, fun _ => 0, ρ⟩ fun r => ∀ c : Dev nD,
      r.2.mem ((c.tc : Thread nD τ).loc main_v4) = Cert.Spec.G (m ((c.tc : Thread nD τ).loc main_arg0))
      ∧ r.2.mem ((c.tc : Thread nD τ).loc main_arg0) = m ((c.tc : Thread nD τ).loc main_arg0) :=
  (θ_run defs _ _).mono (fun _ h c => ⟨(h c 4).trans (final m c (hfin c)),
      (h c 0).trans (((dats m 0 c).arrAt_in 0 rfl _).trans ((A_eq m c 0).trans (V_main_arg0 m c)))⟩)
    (run_main m ρ)

end Cert.KernelIdeal.Final

end
-- ==== Proof.RefSide.lean ====
import proofs.«128169_j50560355008576_2_alg».proof.Proof.Gen.ReferenceIdeal.Read
import proofs.«128169_j50560355008576_2_alg».proof.Proof.Spec
import Idealize.ShloMosaic.Lib.ValueIdx
import Idealize.ShloMosaic.Lib.Pipeline.Value
import Idealize.ShloMosaic.PureOps.Ideal.Laws
import Idealize.ShloMosaic.Lib.StableHlo.Run

/-!
  The reference program computes the specification. Its last stage, read at an index `(r, c)`, is
  `exp (-(max ((‖z r‖² + ‖z c‖²) - 2 * ⟨z r, z c⟩) 0) / 1)`: the two squared norms are the row sums of `z * z` read through the
  two broadcasts (a column, then a row), and the inner product is the contraction of `z` with its transpose, whose element
  at `(k, c)` is `z c k`. Every operand index the stages compose is the pair of coordinates the specification names.
-/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The row sum read through the column broadcast sits at row `i 0`. -/
theorem idx_rowsum_left (i : S8192x8192.Idx) (k : Fin 128) :
    idx_main_v1 (idx_main_v4 (idx_main_v6 i)) k = ix2 (i 0) k :=
  funext fun a => Fin.ext (by match a with | ⟨0, _⟩ => rfl | ⟨1, _⟩ => rfl)

/-- The row sum read through the row broadcast sits at row `i 1`. -/
theorem idx_rowsum_right (i : S8192x8192.Idx) (k : Fin 128) :
    idx_main_v1 (idx_main_v5 (idx_main_v7 i)) k = ix2 (i 1) k :=
  funext fun a => Fin.ext (by match a with | ⟨0, _⟩ => rfl | ⟨1, _⟩ => rfl)

/-- The contraction's left operand is read at `(i 0, k)`. -/
theorem idx_gram_left (i : S8192x8192.Idx) (k : Fin 128) : lidx_main_v3 i k = ix2 (i 0) k :=
  funext fun a => Fin.ext (by match a with | ⟨0, _⟩ => rfl | ⟨1, _⟩ => rfl)

/-- The contraction's right operand is the transpose, so its element `(k, i 1)` is the argument's at `(i 1, k)`. -/
theorem idx_gram_right (i : S8192x8192.Idx) (k : Fin 128) : idx_main_v2 (ridx_main_v3 i k) = ix2 (i 1) k :=
  funext fun a => Fin.ext (by match a with | ⟨0, _⟩ => rfl | ⟨1, _⟩ => rfl)

/-- The reference's last stage is the specification, index by index. -/
theorem ref_eq (z : FVec Ideal S8192x128 .f32) : val_main_v17 (F := Ideal) z = Cert.Spec.G z := by
  funext i
  rw [val_main_v17_apply, val_main_v16_apply, val_main_v15_apply, val_main_cst_2_apply, val_main_v14_apply,
    val_main_v13_apply, val_main_v12_apply, val_main_cst_1_apply, val_main_v11_apply, val_main_v10_apply,
    val_main_v9_apply, val_main_cst_0_apply, val_main_v3_apply, val_main_v8_apply, val_main_v7_apply, val_main_v5_apply,
    val_main_v1_apply, val_main_v6_apply, val_main_v4_apply, val_main_v1_apply, val_main_cst_apply]
  simp only [val_main_v0_apply, val_main_v2_apply, idx_rowsum_left, idx_rowsum_right, idx_gram_left, idx_gram_right,
    Ideal.hostUnary_exp_def, Ideal.hostDivf_def, Ideal.hostNegf_def, Ideal.negf_def, Ideal.maximumf_def, Ideal.subf_def,
    Ideal.addf_def, Ideal.mulf_def, Ideal.ofBits_def]
  rfl

/-- The reference's run: every weakly fair execution terminates with the result array at the specification of the
    argument array, and the argument unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v17) = Cert.Spec.G (m' ((c.tc : Thread nD τ).loc main_arg0))
      ∧ r.2.mem ((c.tc : Thread nD τ).loc main_arg0) = m' ((c.tc : Thread nD τ).loc main_arg0) :=
  (θ_run defs _ _).mono (fun _ h c => ⟨by rw [(h c).1, val_main_v17_eq, ref_eq], (h c).2⟩)
    (Cert.ReferenceIdeal.Value.run (F := Ideal) m' ρ')

end Cert.ReferenceIdeal.RefValue

end
-- ==== Proof.Finite.lean ====
import proofs.«128169_j50560355008576_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

/-!
  Finiteness. The precondition says that every entry `x` of the argument satisfies `|x| < +∞` (the conjunction over all
  entries of the comparison of `max x (-x)` with the pattern of `+∞`). On the extended reals `max x (-x) < ⊤` excludes both
  `⊤` and `⊥`, so every entry is a real number.
-/

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The pattern `0x7F800000` denotes `+∞`. -/
theorem ofBits_pos_inf : Ideal.ofBits .f32 0x7F800000#32 = ⊤ := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the argument is a real number. -/
theorem finite [Facts] (z : FVec Ideal S8192x128 .f32) (h : fn (F := Ideal) z = fun _ => 1#1) (i : S8192x128.Idx) :
    ∃ x : ℝ, z i = (x : EReal) := by
  have h0 := congrFun h ValueIdx.ix0
  dsimp only [fn] at h0
  have hi := Host.reduce_andi_all _ _ _ _ _ h0 i
  rw [cmpf_apply, broadcastInDim_apply _ Facts.bcast_S_S8192x128 _ i (fun a => a.elim0) (fun a => a.elim0), constant_apply,
    ofBits_pos_inf] at hi
  have hlt : max (z i) (-(z i)) < ⊤ := by
    by_contra hn
    have : Ideal.cmp .olt (max (z i) (-(z i))) ⊤ = 0#1 := by simp [Ideal.cmp, hn]
    exact absurd (hi.symm.trans this) (by decide)
  exact real_of_abs_lt_top (z i) hlt

end Cert.Finite

end
-- ==== Proof.lean ====
/-
  The Gaussian kernel matrix of the rows of z : f32[8192, 128] — out[r, c] = exp (-(max (|z_r|^2 + |z_c|^2 - 2 z_r . z_c) 0) / 1) —
  computed by a pipelined kernel over a 4 x 16 grid of 512 x 2048 output blocks, against the plain array program.

  The kernel forms each inner product z_r . z_c from three matrix products of half-precision pieces: with hi the
  half-precision rounding of an operand and lo the half-precision rounding of (operand - hi), it adds
  hi_r . hi_c + hi_r . lo_c + lo_r . hi_c. On the extended reals a change of float format is the identity, so hi is the
  operand itself and lo is (operand - operand): zero exactly when the operand's entries are real numbers. Under the
  precondition (every entry of z finite) the second and third products are therefore sums of zeros and the kernel's inner
  product is the reference's single z_r . z_c; the squared norms are computed on the host by the same operations in both
  programs; and 0 - x = -x. That is the algebraic claim. The step x - x = 0 needs the precondition (at an infinite
  entry x - x is not zero), and the proof uses the precondition exactly there.

  The kernel hands one array, z, to two of its windows (a 512-row block and a 2048-row block). The frame of the kernel
  (the program over machine words, and its idealization) is proved with the array's share dealt by halves to the two windows; both only read.
  The idealized program differs from the kernel at two places, where "widen (narrow v)" stands as v: the two conjuncts of preserves.
-/
import proofs.«128169_j50560355008576_2_alg».proof.Defs
import proofs.«128169_j50560355008576_2_alg».proof.Proof.Gen.Kernel
import proofs.«128169_j50560355008576_2_alg».proof.Proof.Gen.KernelIdeal
import proofs.«128169_j50560355008576_2_alg».proof.Proof.Gen.ReferenceIdeal
import proofs.«128169_j50560355008576_2_alg».proof.Proof.Gen.Pre_finite_inputs
import proofs.«128169_j50560355008576_2_alg».proof.Proof.KernelFrame
import proofs.«128169_j50560355008576_2_alg».proof.Proof.KernelIdealFrame
import proofs.«128169_j50560355008576_2_alg».proof.Proof.KernelValue
import proofs.«128169_j50560355008576_2_alg».proof.Proof.RefSide
import proofs.«128169_j50560355008576_2_alg».proof.Proof.Finite
import Idealize.ShloMosaic.Adequacy
import Idealize.ShloMosaic.Init

noncomputable section

namespace Cert.Proof

open Idealize.ShloMosaic Idealize.ShloMosaic.TcCoe Idealize.SL.Sem

/-- The kernel program over machine words runs and leaves z as it was. -/
theorem frame_k : Cert.frame_Kernel := fun m ρ _ => Cert.Kernel.Shared.frame m ρ

/-- So does the idealized kernel. -/
theorem frame_ki : Cert.frame_KernelIdeal := fun m ρ _ => Cert.KernelIdeal.Shared.frame m ρ

/-- The reference runs and leaves z as it was: its run, the result dropped. -/
theorem frame_ri : Cert.frame_ReferenceIdeal := fun m ρ _ =>
  (θ_run Cert.ReferenceIdeal.defs _ _).mono (fun _ h c => (h c).2) (Cert.ReferenceIdeal.RefValue.ref_run m ρ)

/-- The two rewrites of the idealization: narrowing a 512 x 128 (a 2048 x 128) single-precision value to half precision and
    widening it back is the identity on the extended reals. -/
theorem preserves : Cert.preserves_Kernel_KernelIdeal :=
  ⟨IdealRules.truncf_extf.statement Cert.KernelIdeal.S512x128 .f32 .bf16, IdealRules.truncf_extf.statement Cert.KernelIdeal.S2048x128 .f32 .bf16⟩

/-- On finite z the idealized kernel's result array and the reference's are the same function of z. -/
theorem algebraic : Cert.algebraic_KernelIdeal_ReferenceIdeal := by
  intro m ρ m' ρ' hpre hagree
  have hfin : ∀ (c : Dev Cert.KernelIdeal.nD) i, ∃ r : ℝ,
      m ((c.tc : Thread Cert.KernelIdeal.nD Cert.KernelIdeal.τ).loc Cert.KernelIdeal.main_arg0) i = (r : EReal) :=
    fun c i => Cert.Finite.finite _ (hpre c) i
  refine ⟨fun c => Cert.Spec.G (m ((c.tc : Thread Cert.KernelIdeal.nD Cert.KernelIdeal.τ).loc Cert.KernelIdeal.main_arg0)),
    Cert.KernelIdeal.Final.run m ρ hfin, ?_⟩
  refine (θ_run Cert.ReferenceIdeal.defs _ _).mono (fun _ h c => ⟨(h c).1.trans ?_, (h c).2⟩)
    (Cert.ReferenceIdeal.RefValue.ref_run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
